-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel

variable [Facts]

def fn {F : FTy → Type} [FloatOps F] (main_arg0 : FVec F S4x64x512x512 .f32) (main_arg1 : FVec F S4x64x512x512 .f32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S4x64x512x512 .f32 := Host.absf main_arg1
  let main_cst_0 : FVec F S_ .f32 := constant S_ .f32 0x7F800000#32
  let main_v5 : FVec F S4x64x512x512 .f32 := broadcastInDim S4x64x512x512 ![] bcast_S_S4x64x512x512 main_cst_0
  let main_v6 : IVec S4x64x512x512 1 := cmpf .olt main_v4 main_v5
  let main_c_1 : IVec S_ 1 := constantI S_ 1 1#1
  let main_v7 : IVec S_ 1 := (fun x v => Host.reduce IntOp.andi x v reducesTo_S4x64x512x512_S_d0_1_2_3 h_S_) main_v6 main_c_1
  let main_v8 : IVec S_ 1 := andi main_v3 main_v7
  main_v8
-- ==== Kernel.lean ====
abbrev S4x64x512x512 : Shape := ⟨4, ![4, 64, 512, 512]⟩
abbrev S16x4x64 : Shape := ⟨3, ![16, 4, 64]⟩
abbrev S4x64x32x128 : Shape := ⟨4, ![4, 64, 32, 128]⟩
abbrev S1x4x64 : Shape := ⟨3, ![1, 4, 64]⟩
abbrev S4x64 : Shape := ⟨2, ![4, 64]⟩
abbrev S4x64x32 : Shape := ⟨3, ![4, 64, 32]⟩
abbrev S_ : Shape := ⟨0, ![]⟩
abbrev S4 : Shape := ⟨1, ![4]⟩

abbrev nBuf : Space → Nat
  | .hbm => 17
  | .vmem => 6
  | .smem => 0
  | _ => 0

abbrev bufTy : (tb : Table) → Fin (tcTables nBuf tb) → BufTy
  | .hbm, ⟨0, _⟩ => ⟨S4x64x512x512, .f32⟩
  | .hbm, ⟨1, _⟩ => ⟨S4x64x512x512, .f32⟩
  | .hbm, ⟨2, _⟩ => ⟨S16x4x64, .f32⟩
  | .hbm, ⟨3, _⟩ => ⟨S_, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | .local _ .vmem, ⟨0, _⟩ => ⟨S4x64x32x128, .f32⟩
  | .local _ .vmem, ⟨1, _⟩ => ⟨S4x64x32x128, .f32⟩
  | .local _ .vmem, ⟨2, _⟩ => ⟨S4x64x32x128, .f32⟩
  | .local _ .vmem, ⟨3, _⟩ => ⟨S4x64x32x128, .f32⟩
  | .local _ .vmem, ⟨4, _⟩ => ⟨S1x4x64, .f32⟩
  | .local _ .vmem, ⟨5, _⟩ => ⟨S1x4x64, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x4x64_S1x4x64_0_0_0 : ∀ a, (![0, 0, 0] : Fin 3 → Nat) a + S1x4x64.size a ≤ S1x4x64.size a
  h_S1x4x64 : 0 < S1x4x64.numel
  shapeCasts_S1x4x64_S4x64 : S1x4x64.ShapeCasts S4x64
  shapeCasts_S4x64_S1x4x64 : S4x64.ShapeCasts S1x4x64
  inb_S4x64x32x128_S4x64x32x128_0_0_0_0 : ∀ a, (![0, 0, 0, 0] : Fin 4 → Nat) a + S4x64x32x128.size a ≤ S4x64x32x128.size a
  h_S4x64x32x128 : 0 < S4x64x32x128.numel
  reduces_S4x64x32x128_S4x64x32 : S4x64x32x128.Reduces [3] S4x64x32
  reduces_S4x64x32_S4x64 : S4x64x32.Reduces [2] S4x64
  reducesTo_S16x4x64_S4x64_d0 : S16x4x64.ReducesTo [0] S4x64
  h_S_ : 0 < S_.numel
  bcast_S_S4x64 : S_.BroadcastsInDim S4x64 (![] : Fin 0 → Fin S4x64.rank)
  reducesTo_S4x64_S4_d1 : S4x64.ReducesTo [1] S4
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x32x128.size a ≤ S4x64x512x512.size a
  hwx0_0 : ∀ i : grid0.Coords, EltTy.bits .f32 = 32 ∨ (Rect.block (s := S4x64x512x512) S4x64x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x32x128.size a ≤ S4x64x512x512.size a
  hwx0_1 : ∀ i : grid0.Coords, EltTy.bits .f32 = 32 ∨ (Rect.block (s := S4x64x512x512) S4x64x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x64.size a ≤ S16x4x64.size a
  hwx0_2 : ∀ i : grid0.Coords, EltTy.bits .f32 = 32 ∨ (Rect.block (s := S16x4x64) S1x4x64.size (cc0_transform_2 i) (hinb0_2 i)).WholeWords (EltTy.packing .f32)

variable [Facts₀]

abbrev win0_0 : Pipeline.Window sig grid0 :=
  Pipeline.Window.ofSpec (Memref.whole main_arg0) S4x64x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x512x512 : Shape := ⟨4, ![4, 64, 512, 512]⟩
abbrev S_ : Shape := ⟨0, ![]⟩
abbrev S4x64 : Shape := ⟨2, ![4, 64]⟩
abbrev S4 : Shape := ⟨1, ![4]⟩

abbrev nBuf : Space → Nat
  | .hbm => 17
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S4x64x512x512, .f32⟩
  | .hbm, ⟨2, _⟩ => ⟨S4x64x512x512, .f32⟩
  | .hbm, ⟨3, _⟩ => ⟨S_, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  reducesTo_S4x64x512x512_S4x64_d2_3 : S4x64x512x512.ReducesTo [2, 3] S4x64
  h_S_ : 0 < S_.numel
  bcast_S_S4x64 : S_.BroadcastsInDim S4x64 (![] : Fin 0 → Fin S4x64.rank)
  reducesTo_S4x64_S4_d1 : S4x64.ReducesTo [1] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.Pieces.lean ====
/-
  What one run of the kernel body leaves in the output block, as a value.

  The body keeps a running [1,4,64] block. At a first column tile it stores the zero block, reads it back and stores
  the zero block plus the tile's partial sums; at any other tile it stores what the block held plus the tile's partial
  sums. Both read as the body's one arithmetic term applied to the two input tiles and to the block's contents before
  (the zero block at a first tile).
-/
import proofs.«176981_j44487271252553_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later column tile: the block ends at the body's term of the two input tiles and of what it held. -/
theorem out_B (c : Dev nD) (i : grid0.Coords) (a2 : Memref sig .tc .vmem S4x64x32x128 .f32) (h2 : a2.IsWhole)
    (a3 : Memref sig .tc .vmem S4x64x32x128 .f32) (h3 : a3.IsWhole) (a4 : Memref sig .tc .vmem S1x4x64 .f32) (h4 : a4.IsWhole)
    (hc : ¬cond0_0 i) (x0 x1 : Vec F S4x64x32x128 .f32) (xo : Vec F S1x4x64 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread,
    View.ld_unit_zero (S := S4x64x32x128) hz4, View.ld_unit_zero (S := S1x4x64) hz3]

/-- A first column tile: the block ends at the body's term of the two input tiles and of the zero block. -/
theorem out_A (c : Dev nD) (i : grid0.Coords) (a2 : Memref sig .tc .vmem S4x64x32x128 .f32) (h2 : a2.IsWhole)
    (a3 : Memref sig .tc .vmem S4x64x32x128 .f32) (h3 : a3.IsWhole) (a4 : Memref sig .tc .vmem S1x4x64 .f32) (h4 : a4.IsWhole)
    (hc : cond0_0 i) (x0 x1 : Vec F S4x64x32x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x4x64) hz3, View.readCov_unit_zero (S := S1x4x64) _ hz3]
  simp only [View.readAt_eq_ld, h2.read_unread, h3.read_unread,
    View.ld_unit_zero (S := S4x64x32x128) hz4]

end Cert.KernelIdeal.Val

end
-- ==== Proof.Payload.lean ====
/-
  The body's arithmetic read at one entry, on the extended reals.

  The body subtracts the two [4,64,32,128] input tiles entry by entry, sums the differences over the 128 columns, then over
  the 32 rows, and adds the result to the running [1,4,64] block. So at entry (0, l, b) the new block is the old block's
  entry plus the sum over the tile's 32 by 128 positions of the differences at (l, b, ·, ·). The zero block is 0 everywhere.
-/
import proofs.«176981_j44487271252553_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx

/-- A sum over the last axis of a [4,64,32,128] array, at (l, b, r): the sum over the 128 columns. -/
theorem sum_cols_apply (v : FVec Ideal S4x64x32x128 .f32) (h : S4x64x32x128.Reduces [3] S4x64x32) (hφ : FKind.Formats .f32)
    (hacc : (0x00000000#32 : BitVec 32) = FKind.add.neutral .f32 hφ) (l : Fin 4) (b : Fin 64) (r : Fin 32) :
    multiReduction .add [3] S4x64x32 v 0x00000000#32 h hφ hacc (ix3 l b r) = ∑ k : Fin 128, v (ix4 l b r k) := by
  refine (Ideal.multiReduction_add_single v _ h hφ hacc (ix3 l b r)).trans ?_
  refine Finset.sum_congr rfl fun k _ => congrArg v ?_
  exact funext fun a => Fin.ext (by match a with | ⟨0, _⟩ => rfl | ⟨1, _⟩ => rfl | ⟨2, _⟩ => rfl | ⟨3, _⟩ => rfl)

/-- A sum over the last axis of a [4,64,32] array, at (l, b): the sum over the 32 rows. -/
theorem sum_rows_apply (v : FVec Ideal S4x64x32 .f32) (h : S4x64x32.Reduces [2] S4x64) (hφ : FKind.Formats .f32)
    (hacc : (0x00000000#32 : BitVec 32) = FKind.add.neutral .f32 hφ) (l : Fin 4) (b : Fin 64) :
    multiReduction .add [2] S4x64 v 0x00000000#32 h hφ hacc (ix2 l b) = ∑ r : Fin 32, v (ix3 l b r) := by
  refine (Ideal.multiReduction_add_single v _ h hφ hacc (ix2 l b)).trans ?_
  refine Finset.sum_congr rfl fun r _ => congrArg v ?_
  exact funext fun a => Fin.ext (by match a with | ⟨0, _⟩ => rfl | ⟨1, _⟩ => rfl | ⟨2, _⟩ => rfl)

/-- The new block at (0, l, b): the old block there plus the tile's sum of differences at (l, b, ·, ·). -/
theorem pay2_apply (x0 x1 : Vec Ideal S4x64x32x128 .f32) (acc : Vec Ideal S1x4x64 .f32) (l : Fin 4) (b : Fin 64) :
    k0_pay2 (F := Ideal) x0 x1 acc (ix3 (0 : Fin 1) l b)
      = acc (ix3 (0 : Fin 1) l b) + ∑ r : Fin 32, ∑ k : Fin 128, (x0 (ix4 l b r k) - x1 (ix4 l b r k)) := by
  unfold k0_pay2
  refine (shapeCast_ab_1ab_apply _ _ (0 : Fin 1) l b).trans ?_
  refine (addf_apply _ _ _).trans ?_
  refine congrArg₂ (· + ·) (shapeCast_1ab_ab_apply _ _ l b) ?_
  refine (sum_rows_apply _ _ _ _ l b).trans ?_
  refine Finset.sum_congr rfl fun r _ => ?_
  refine (sum_cols_apply _ _ _ _ l b r).trans ?_
  rfl

/-- The zero block is 0 at every entry. -/
theorem pay1_apply (l : Fin 4) (b : Fin 64) : k0_pay1 (F := Ideal) (ix3 (0 : Fin 1) l b) = 0 := by
  unfold k0_pay1
  refine (shapeCast_ab_1ab_apply _ _ (0 : Fin 1) l b).trans ?_
  exact Ideal.ofBits_zero_f32

end Cert.KernelIdeal.Val

end
-- ==== Proof.Blocks.lean ====
/-
  An input tile read at an entry.

  Grid point t (t = 4 i + j, i the row band, j the column band) stages, of each [4,64,512,512] input, the block
  [all, all, 32 i … 32 i + 31, 128 j … 128 j + 127]. So the tile's entry (l, b, r, k) is the array's entry
  (l, b, 32 i + r, 128 j + k). The output block of point t is row i of the [16,4,64] partial-sum array.
-/
import proofs.«176981_j44487271252553_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx

variable {F : FTy → Type} [FloatOps F]
variable (m : (ℓ : Loc nD τ sig) → Buf (Elt F) ℓ)

/-- The block indices of the three windows at grid point t, decided over the 64 points. -/
theorem idx_facts : ∀ t : Fin cfg0.N,
    win0_0.index t (0 : Fin 4) = 0 ∧ win0_0.index t (1 : Fin 4) = 0 ∧ win0_0.index t (2 : Fin 4) = t.val / 4 ∧ win0_0.index t (3 : Fin 4) = t.val % 4
    ∧ win0_1.index t (0 : Fin 4) = 0 ∧ win0_1.index t (1 : Fin 4) = 0 ∧ win0_1.index t (2 : Fin 4) = t.val / 4 ∧ win0_1.index t (3 : Fin 4) = t.val % 4
    ∧ win0_2.index t (0 : Fin 3) = t.val / 4 ∧ win0_2.index t (1 : Fin 3) = 0 ∧ win0_2.index t (2 : Fin 3) = 0 :=
  (by decide +kernel : ∀ t : Fin grid0.N, _)

/-- The first input's tile at point t, entry (l, b, r, k): the first argument at (l, b, 32 (t / 4) + r, 128 (t % 4) + k). -/
theorem iblk0_apply (c : Dev nD) (t : Fin cfg0.N) (l : Fin 4) (b : Fin 64) (r : Fin 32) (k : Fin 128) (R S : Fin 512)
    (hR : R.val = t.val / 4 * 32 + r.val) (hS : S.val = t.val % 4 * 128 + k.val) :
    (iblk m c 0 t : Vec F S4x64x32x128 .f32) (ix4 l b r k) = m ((c : Thread nD τ).loc main_arg0) (ix4 l b R S) := by
  obtain ⟨e0, e1, e2, e3, -⟩ := idx_facts t
  unfold iblk
  rw [View.read_apply]
  show V m c main_arg0 (((cfg0.win 0).blk t).view.emb (ix4 l b r k)) = _
  rw [V_main_arg0]
  refine congrArg _ (funext fun a => Fin.ext ?_)
  match a with
  | ⟨0, _⟩ => show win0_0.index t (0 : Fin 4) * 4 + 1 * l.val = l.val; omega
  | ⟨1, _⟩ => show win0_0.index t (1 : Fin 4) * 64 + 1 * b.val = b.val; omega
  | ⟨2, _⟩ => show win0_0.index t (2 : Fin 4) * 32 + 1 * r.val = R.val; omega
  | ⟨3, _⟩ => show win0_0.index t (3 : Fin 4) * 128 + 1 * k.val = S.val; omega

/-- The second input's tile likewise. -/
theorem iblk1_apply (c : Dev nD) (t : Fin cfg0.N) (l : Fin 4) (b : Fin 64) (r : Fin 32) (k : Fin 128) (R S : Fin 512)
    (hR : R.val = t.val / 4 * 32 + r.val) (hS : S.val = t.val % 4 * 128 + k.val) :
    (iblk m c 1 t : Vec F S4x64x32x128 .f32) (ix4 l b r k) = m ((c : Thread nD τ).loc main_arg1) (ix4 l b R S) := by
  obtain ⟨-, -, -, -, e0, e1, e2, e3, -⟩ := idx_facts t
  unfold iblk
  rw [View.read_apply]
  show V m c main_arg1 (((cfg0.win 1).blk t).view.emb (ix4 l b r k)) = _
  rw [V_main_arg1]
  refine congrArg _ (funext fun a => Fin.ext ?_)
  match a with
  | ⟨0, _⟩ => show win0_1.index t (0 : Fin 4) * 4 + 1 * l.val = l.val; omega
  | ⟨1, _⟩ => show win0_1.index t (1 : Fin 4) * 64 + 1 * b.val = b.val; omega
  | ⟨2, _⟩ => show win0_1.index t (2 : Fin 4) * 32 + 1 * r.val = R.val; omega
  | ⟨3, _⟩ => show win0_1.index t (3 : Fin 4) * 128 + 1 * k.val = S.val; omega

end Cert.KernelIdeal.Val

end
-- ==== Proof.LibConvTaps.lean ====
/-
  Two facts that join the two arrangements of the 5 by 5 convolution, with no program in sight.
  (1) A sum over `Fin (a * b)` is the iterated sum over `Fin a` and `Fin b`, the index read as `b * i + j`.
  (2) One tap of the convolution read two ways. The zero-padded way: pixel (h + kh − 2, w + kw − 2) of the image when both
  coordinates lie in [0, 32), and 0 otherwise. The flat-halo way: the image's 1024 pixels laid on a line with 66 zeros
  before them and zeros after, read at position 32 (h + kh) + (w + kw), and multiplied by the width mask
  [2 ≤ w + kw < 34]. Where the mask is 1 the flat position is inside the image exactly when the row h + kh − 2 is, and it
  is then the same pixel; where the mask is 0 both are 0.
-/
import Mathlib
import Idealize.ShloMosaic.PureOps.Ideal

open scoped BigOperators

namespace Cert.LibConvTaps

/-- A sum over `Fin (a * b)` as an iterated sum, the index of the pair `(i, j)` being `j + b * i`. -/
theorem sum_fin_mul {M : Type*} [AddCommMonoid M] (a b : ℕ) (f : Fin (a * b) → M) :
    ∑ k : Fin (a * b), f k = ∑ i : Fin a, ∑ j : Fin b, f (finProdFinEquiv (i, j)) := by
  rw [← Fintype.sum_prod_type', ← Equiv.sum_comp finProdFinEquiv f]

/-- The value of `finProdFinEquiv`. -/
theorem finProdFinEquiv_val (a b : ℕ) (i : Fin a) (j : Fin b) : (finProdFinEquiv (i, j)).val = j.val + b * i.val := rfl

variable (X : Fin 32 → Fin 32 → EReal)

/-- One tap, zero-padded: pixel (hk − 2, wk − 2) when both lie in [0, 32), else 0 (`hk = h + kh`, `wk = w + kw`). -/
noncomputable def padTap (hk wk : ℕ) : EReal :=
  if h : 2 ≤ hk ∧ hk < 34 ∧ 2 ≤ wk ∧ wk < 34 then X ⟨hk - 2, by omega⟩ ⟨wk - 2, by omega⟩ else 0

/-- The image's pixels on a line behind 66 zeros: position ρ holds pixel ((ρ − 66) / 32, (ρ − 66) % 32) when 66 ≤ ρ < 1090. -/
noncomputable def flatHalo (ρ : ℕ) : EReal :=
  if h : 66 ≤ ρ ∧ ρ < 1090 then X ⟨(ρ - 66) / 32, by omega⟩ ⟨(ρ - 66) % 32, Nat.mod_lt _ (by norm_num)⟩ else 0

/-- The width mask of a tap. -/
noncomputable def widthMask (wk : ℕ) : EReal := if 2 ≤ wk ∧ wk < 34 then 1 else 0

/-- The two readings of a tap agree (`hk ≤ 35`, `wk ≤ 35`: a pixel coordinate below 32 plus a kernel offset below 5). -/
theorem flatHalo_mul_mask (hk wk : ℕ) (hw : wk < 36) :
    flatHalo X (32 * hk + wk) * widthMask wk = padTap X hk wk := by
  unfold flatHalo widthMask padTap
  by_cases hm : 2 ≤ wk ∧ wk < 34
  · rw [if_pos hm, mul_one]
    by_cases hr : 2 ≤ hk ∧ hk < 34
    · have h1 : 66 ≤ 32 * hk + wk ∧ 32 * hk + wk < 1090 := by omega
      have h2 : 2 ≤ hk ∧ hk < 34 ∧ 2 ≤ wk ∧ wk < 34 := ⟨hr.1, hr.2, hm.1, hm.2⟩
      rw [dif_pos h1, dif_pos h2]
      congr 1
      · exact Fin.ext (by show (32 * hk + wk - 66) / 32 = hk - 2; omega)
      · exact Fin.ext (by show (32 * hk + wk - 66) % 32 = wk - 2; omega)
    · have h1 : ¬(66 ≤ 32 * hk + wk ∧ 32 * hk + wk < 1090) := by omega
      have h2 : ¬(2 ≤ hk ∧ hk < 34 ∧ 2 ≤ wk ∧ wk < 34) := fun h => hr ⟨h.1, h.2.1⟩
      rw [dif_neg h1, dif_neg h2]
  · have h2 : ¬(2 ≤ hk ∧ hk < 34 ∧ 2 ≤ wk ∧ wk < 34) := fun h => hm ⟨h.2.2.1, h.2.2.2⟩
    rw [if_neg hm, mul_zero, dif_neg h2]

end Cert.LibConvTaps
-- ==== Proof.TileSums.lean ====
/-
  The arithmetic that joins a sum over a 512 by 512 map taken tile by tile with the sum taken in one pass, in any
  commutative additive monoid, with no program in sight.

  The map is cut into 16 bands of 32 rows and 4 bands of 128 columns. `tile D i j` is the sum of `D` over the 32 by 128 tile
  (i, j). Walking the 64 tiles in row-major order, position `n` is tile (n / 4, n % 4); the running value `acc D n` starts
  again at each n with n % 4 = 0 and adds tile after tile, so that after position 4 i + 3 it is the sum of band i's four tiles.
  Summed over the 16 bands those are the sum of `D` over the whole map.
-/
import proofs.«176981_j44487271252553_2_alg».proof.Proof.LibConvTaps

open scoped BigOperators

namespace Cert.TileSums

variable {M : Type} [AddCommMonoid M]

/-- `D` read at natural-number coordinates: `D` inside the map, zero outside. -/
def ext (D : Fin 512 → Fin 512 → M) (r s : ℕ) : M :=
  if h : r < 512 ∧ s < 512 then D ⟨r, h.1⟩ ⟨s, h.2⟩ else 0

/-- The sum of `D` over tile (i, j): rows 32 i … 32 i + 31, columns 128 j … 128 j + 127. -/
def tile (D : Fin 512 → Fin 512 → M) (i j : ℕ) : M :=
  ∑ h : Fin 32, ∑ w : Fin 128, ext D (i * 32 + h.val) (j * 128 + w.val)

/-- The running value after position `n` of the row-major walk: the tiles of band n / 4 up to column band n % 4. -/
def acc (D : Fin 512 → Fin 512 → M) (n : ℕ) : M :=
  ∑ j ∈ Finset.range (n % 4 + 1), tile D (n / 4) j

/-- At the first tile of a band the running value is that tile alone. -/
theorem acc_first (D : Fin 512 → Fin 512 → M) (n : ℕ) (h : n % 4 = 0) : acc D n = 0 + tile D (n / 4) (n % 4) := by
  unfold acc
  rw [h, Finset.sum_range_one, zero_add]

/-- At any other tile it is the value before plus the tile. -/
theorem acc_next (D : Fin 512 → Fin 512 → M) (n : ℕ) (h : ¬ n % 4 = 0) :
    acc D n = acc D (n - 1) + tile D (n / 4) (n % 4) := by
  unfold acc
  have h1 : (n - 1) / 4 = n / 4 := by omega
  have h2 : n % 4 + 1 = ((n - 1) % 4 + 1) + 1 := by omega
  have h3 : n % 4 = (n - 1) % 4 + 1 := by omega
  rw [h2, Finset.sum_range_succ, h1, ← h3]

/-- After the last tile of band `i` it is the sum of the band's four tiles. -/
theorem acc_last (D : Fin 512 → Fin 512 → M) (i : ℕ) : acc D (4 * i + 3) = ∑ j : Fin 4, tile D i j.val := by
  unfold acc
  have h1 : (4 * i + 3) / 4 = i := by omega
  have h2 : (4 * i + 3) % 4 + 1 = 4 := by omega
  rw [h1, h2, Finset.sum_range]

/-- A sum over the 512 rows, band by band. -/
theorem sum_rows (f : Fin 512 → M) : ∑ r : Fin 512, f r = ∑ i : Fin 16, ∑ h : Fin 32, f ⟨i.val * 32 + h.val, by omega⟩ := by
  have e := Cert.LibConvTaps.sum_fin_mul (M := M) 16 32 f
  rw [e]
  refine Finset.sum_congr rfl fun i _ => Finset.sum_congr rfl fun h _ => congrArg f (Fin.ext ?_)
  show h.val + 32 * i.val = i.val * 32 + h.val
  omega

/-- A sum over the 512 columns, band by band. -/
theorem sum_cols (f : Fin 512 → M) : ∑ s : Fin 512, f s = ∑ j : Fin 4, ∑ w : Fin 128, f ⟨j.val * 128 + w.val, by omega⟩ := by
  have e := Cert.LibConvTaps.sum_fin_mul (M := M) 4 128 f
  rw [e]
  refine Finset.sum_congr rfl fun j _ => Finset.sum_congr rfl fun w _ => congrArg f (Fin.ext ?_)
  show w.val + 128 * j.val = j.val * 128 + w.val
  omega

/-- Inside the map the natural-number reading is `D`. -/
theorem ext_tile (D : Fin 512 → Fin 512 → M) (i : Fin 16) (j : Fin 4) (h : Fin 32) (w : Fin 128) :
    ext D (i.val * 32 + h.val) (j.val * 128 + w.val) = D ⟨i.val * 32 + h.val, by omega⟩ ⟨j.val * 128 + w.val, by omega⟩ := by
  unfold ext
  rw [dif_pos ⟨by omega, by omega⟩]

/-- The 64 tiles together are the whole map. -/
theorem sum_tiles (D : Fin 512 → Fin 512 → M) :
    ∑ i : Fin 16, ∑ j : Fin 4, tile D i.val j.val = ∑ r : Fin 512, ∑ s : Fin 512, D r s := by
  rw [sum_rows]
  refine Finset.sum_congr rfl fun i _ => ?_
  unfold tile
  rw [Finset.sum_comm]
  refine Finset.sum_congr rfl fun h _ => ?_
  rw [sum_cols]
  refine Finset.sum_congr rfl fun j _ => Finset.sum_congr rfl fun w _ => ?_
  exact ext_tile D i j h w

end Cert.TileSums
-- ==== Proof.Accum.lean ====
/-
  The running block, point by point, on the extended reals.

  For one device and one entry (l, b), let D be the 512 by 512 map of differences first argument − second argument at
  (l, b, ·, ·). Point n of the grid works on tile (n / 4, n % 4) of D: the body adds to the running block's entry (0, l, b)
  the sum of D over that tile, starting from 0 at a first column tile. So after point n the entry is the running value
  `TileSums.acc D n` of the row-major walk over the tiles — by induction on the point, never by listing the grid.
-/
import proofs.«176981_j44487271252553_2_alg».proof.Proof.Pieces
import proofs.«176981_j44487271252553_2_alg».proof.Proof.Payload
import proofs.«176981_j44487271252553_2_alg».proof.Proof.Blocks
import proofs.«176981_j44487271252553_2_alg».proof.Proof.TileSums

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx

variable (m : (ℓ : Loc nD τ sig) → Buf (Elt Ideal) ℓ)

/-- The two argument arrays of device c, as functions of the index. -/
def arg0 (c : Dev nD) : S4x64x512x512.Idx → EReal := m ((c : Thread nD τ).loc main_arg0)
def arg1 (c : Dev nD) : S4x64x512x512.Idx → EReal := m ((c : Thread nD τ).loc main_arg1)

/-- The map of differences of the two arguments at (l, b, ·, ·). -/
def dmap (c : Dev nD) (l : Fin 4) (b : Fin 64) : Fin 512 → Fin 512 → EReal :=
  fun r s => arg0 m c (ix4 l b r s) - arg1 m c (ix4 l b r s)

/-- The sum of differences over the two staged tiles of point n is the sum of the map over tile (n / 4, n % 4). -/
theorem tile_eq (c : Dev nD) (n : ℕ) (hn : n < cfg0.N) (l : Fin 4) (b : Fin 64) (x0 x1 : Vec Ideal S4x64x32x128 .f32)
    (h0 : x0 = iblk m c 0 ⟨n, hn⟩) (h1 : x1 = iblk m c 1 ⟨n, hn⟩) :
    ∑ r : Fin 32, ∑ k : Fin 128, (x0 (ix4 l b r k) - x1 (ix4 l b r k))
      = Cert.TileSums.tile (dmap m c l b) (n / 4) (n % 4) := by
  subst h0 h1
  have hN : n < 64 := lt_of_lt_of_eq hn (show cfg0.N = 64 from N_0)
  unfold Cert.TileSums.tile
  refine Finset.sum_congr rfl fun r _ => Finset.sum_congr rfl fun k _ => ?_
  have hr : n / 4 * 32 + r.val < 512 := by have := r.isLt; omega
  have hk : n % 4 * 128 + k.val < 512 := by have := k.isLt; omega
  unfold Cert.TileSums.ext
  rw [dif_pos ⟨hr, hk⟩]
  unfold dmap arg0 arg1
  rw [iblk0_apply m c ⟨n, hn⟩ l b r k ⟨_, hr⟩ ⟨_, hk⟩ rfl rfl, iblk1_apply m c ⟨n, hn⟩ l b r k ⟨_, hr⟩ ⟨_, hk⟩ rfl rfl]

/-- After point n the running block's entry (0, l, b) is the running value of the walk over the tiles of the map. -/
theorem outsAt_apply (c : Dev nD) (l : Fin 4) (b : Fin 64) (n : ℕ) :
    ∀ hn : n < cfg0.N, outsAt0 m c n hn (ix3 (0 : Fin 1) l b) = Cert.TileSums.acc (dmap m c l b) n := by
  induction n using Nat.strong_induction_on with
  | _ n ih =>
    intro hn
    by_cases h0 : n % 4 = 0
    · have e1 := outsAt0_A m c ⟨n, hn⟩ h0
      have e2 := out_A c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) ((hcond0_0 ⟨n, hn⟩).mpr h0) (iblk m c 0 ⟨n, hn⟩) (iblk m c 1 ⟨n, hn⟩)
      refine (congrFun (e1.trans e2) (ix3 (0 : Fin 1) l b)).trans ?_
      refine (pay2_apply (iblk m c 0 ⟨n, hn⟩) (iblk m c 1 ⟨n, hn⟩) (k0_pay1 (F := Ideal)) l b).trans ?_
      refine (congrArg₂ (· + ·) (pay1_apply l b) (tile_eq m c n hn l b _ _ rfl rfl)).trans ?_
      exact (Cert.TileSums.acc_first _ n h0).symm
    · have hlt : n - 1 < cfg0.N := Nat.lt_of_le_of_lt (Nat.sub_le _ _) hn
      have e1 := outsAt0_B m c ⟨n, hn⟩ h0
      have e2 := out_B c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (fun h => h0 ((hcond0_0 ⟨n, hn⟩).mp h)) (iblk m c 0 ⟨n, hn⟩) (iblk m c 1 ⟨n, hn⟩)
        (outsAt0 m c (n - 1) hlt)
      refine (congrFun (e1.trans e2) (ix3 (0 : Fin 1) l b)).trans ?_
      refine (pay2_apply (iblk m c 0 ⟨n, hn⟩) (iblk m c 1 ⟨n, hn⟩) (outsAt0 m c (n - 1) hlt) l b).trans ?_
      refine (congrArg₂ (· + ·) (ih (n - 1) (by omega) hlt) (tile_eq m c n hn l b _ _ rfl rfl)).trans ?_
      exact (Cert.TileSums.acc_next _ n h0).symm

end Cert.KernelIdeal.Val

end
-- ==== Proof.Final.lean ====
/-
  The [16,4,64] array of partial sums the region leaves.

  Output block i is written back once, after the last column tile of row band i (point 4 i + 3), when the running block
  holds the sum of band i's four tiles. The sixteen blocks are the sixteen rows of the array, so the array ends, at
  (i, l, b), at the sum over the four column bands j of the sum of the difference map at (l, b) over tile (i, j).
-/
import proofs.«176981_j44487271252553_2_alg».proof.Proof.Accum

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx

variable (m : (ℓ : Loc nD τ sig) → Buf (Elt Ideal) ℓ)

/-- Row band p's partial sum at (l, b): its four tiles' sums together. -/
def partialAt (c : Dev nD) (p : Fin 16) (l : Fin 4) (b : Fin 64) : EReal :=
  ∑ j : Fin 4, Cert.TileSums.tile (dmap m c l b) p.val j.val

/-- The array of partial sums. -/
def partials (c : Dev nD) : S16x4x64.Idx → EReal := fun i => partialAt m c (i 0) (i 1) (i 2)

theorem partials_ix3 (c : Dev nD) (p : Fin 16) (l : Fin 4) (b : Fin 64) :
    partials m c (ix3 p l b) = partialAt m c p l b := rfl

/-- At a point that writes back, the running block's entry is the partial sum of the point's row band. -/
theorem flushed_apply (c : Dev nD) (t : Fin cfg0.N) (h3 : t.val % 4 = 3) (y : S1x4x64.Idx) :
    outsAt0 m c t.val t.isLt y = partials m c (((cfg0.win 2).blk t).view.emb y) := by
  have hN : t.val < 64 := lt_of_lt_of_eq t.isLt (show cfg0.N = 64 from N_0)
  obtain ⟨-, -, -, -, -, -, -, -, e0, e1, e2⟩ := idx_facts t
  obtain ⟨u, l, b, rfl⟩ : ∃ (u : Fin 1) (l : Fin 4) (b : Fin 64), y = ix3 u l b := ⟨y 0, y 1, y 2, eq_ix3 y⟩
  obtain rfl : u = 0 := Subsingleton.elim _ _
  have hp : t.val / 4 < 16 := by omega
  have he : ((cfg0.win 2).blk t).view.emb (ix3 (0 : Fin 1) l b) = ix3 (⟨t.val / 4, hp⟩ : Fin 16) l b := by
    funext a
    apply Fin.ext
    match a with
    | ⟨0, _⟩ => show win0_2.index t (0 : Fin 3) * 1 + 1 * 0 = t.val / 4; omega
    | ⟨1, _⟩ => show win0_2.index t (1 : Fin 3) * 4 + 1 * l.val = l.val; omega
    | ⟨2, _⟩ => show win0_2.index t (2 : Fin 3) * 64 + 1 * b.val = b.val; omega
  rw [he, partials_ix3, outsAt_apply m c l b t.val t.isLt]
  unfold partialAt
  have ht : t.val = 4 * (t.val / 4) + 3 := by omega
  exact (congrArg (Cert.TileSums.acc (dmap m c l b)) ht).trans (Cert.TileSums.acc_last _ _)

/-- What a write-back writes is the point's block of the array of partial sums. -/
theorem flushed_eq (c : Dev nD) (t : Fin cfg0.N) (hf : (cfg0.win 2).flush t = true) :
    (dats m 0 c).flushed 2 t = ((cfg0.win 2).blk t).view.read (Elt Ideal) (partials m c) := by
  have h3 : t.val % 4 = 3 := (flush0_2 t).mp hf
  show (cfg0.win 2).cut (grid0.coords t) ((dats m 0 c).after 2 t) = _
  rw [after0_2]
  funext y
  exact flushed_apply m c t h3 y

/-- Every entry of the array lies in the block of the last column tile of its row band. -/
theorem covered (c : Dev nD) (i : S16x4x64.Idx) :
    ∃ t : Fin cfg0.N, (cfg0.win 2).flush t = true ∧ i ∈ ((cfg0.win 2).blk t).view.set := by
  have h0 : (i 0).val < 16 := (i 0).isLt
  have h1 : (i 1).val < 4 := (i 1).isLt
  have h2 : (i 2).val < 64 := (i 2).isLt
  have hN : cfg0.N = 64 := N_0
  have hlt : 4 * (i 0).val + 3 < cfg0.N := by rw [hN]; omega
  refine ⟨⟨4 * (i 0).val + 3, hlt⟩, (flush0_2 _).mpr (by show (4 * (i 0).val + 3) % 4 = 3; omega), ?_⟩
  obtain ⟨-, -, -, -, -, -, -, -, e0, e1, e2⟩ := idx_facts ⟨4 * (i 0).val + 3, hlt⟩
  have e0' : win0_2.index ⟨4 * (i 0).val + 3, hlt⟩ (0 : Fin 3) = (4 * (i 0).val + 3) / 4 := e0
  show i ∈ ((View.whole main_v0).slice (win0_2.rect ⟨4 * (i 0).val + 3, hlt⟩)).set
  rw [View.set_slice_whole, Rect.mem_set_unit]
  intro a
  match a with
  | ⟨0, _⟩ =>
    show win0_2.index ⟨4 * (i 0).val + 3, hlt⟩ (0 : Fin 3) * 1 ≤ (i 0).val ∧ (i 0).val < win0_2.index ⟨4 * (i 0).val + 3, hlt⟩ (0 : Fin 3) * 1 + 1
    omega
  | ⟨1, _⟩ =>
    show win0_2.index ⟨4 * (i 0).val + 3, hlt⟩ (1 : Fin 3) * 4 ≤ (i 1).val ∧ (i 1).val < win0_2.index ⟨4 * (i 0).val + 3, hlt⟩ (1 : Fin 3) * 4 + 4
    omega
  | ⟨2, _⟩ =>
    show win0_2.index ⟨4 * (i 0).val + 3, hlt⟩ (2 : Fin 3) * 64 ≤ (i 2).val ∧ (i 2).val < win0_2.index ⟨4 * (i 0).val + 3, hlt⟩ (2 : Fin 3) * 64 + 64
    omega

/-- After the region the result array of the kernel is the array of partial sums. -/
theorem final (c : Dev nD) : (dats m 0 c).arrAt 2 cfg0.N = partials m c :=
  (dats m 0 c).arrAt_eq_of_cover 2 (partials m c) (flushed_eq m c) (covered c)

end Cert.KernelIdeal.Val

end
-- ==== Proof.KernelRun.lean ====
/-
  The kernel's program, run: its result as a value.

  After the region the program sums the [16,4,64] array of partial sums over its first axis (`bandSum`), and then applies
  the lines both programs share (`epilogue`): negate, exponentiate, scale by ten, sum over the second axis and divide by
  64, sum the four means. The shared lines are carried as one function and never opened.
-/
import proofs.«176981_j44487271252553_2_alg».proof.Proof.Final
import Idealize.ShloMosaic.Lib.StableHlo.Run

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

variable (m : (ℓ : Loc nD τ sig) → Buf (Elt Ideal) ℓ) (ρ : Dev nD → PrngReg)

/-- The host's sum of the partial sums over the sixteen row bands, from the zero word. -/
def bandSum (P : FVec Ideal S16x4x64 .f32) : FVec Ideal S4x64 .f32 :=
  Host.reduceAdd (F := Ideal) P (constant (F := Ideal) S_ .f32 0x00000000#32) reducesTo_S16x4x64_S4x64_d0 h_S_

/-- The lines after the first reduction, which the two programs share word for word. -/
def epilogue (d : FVec Ideal S4x64 .f32) : FVec Ideal S_ .f32 :=
  Host.reduceAdd (F := Ideal)
    (Host.divf (F := Ideal)
      (Host.reduceAdd (F := Ideal)
        (mulf (broadcastInDim S4x64 ![] bcast_S_S4x64 (constant (F := Ideal) S_ .f32 0x41200000#32))
          (Host.exp (F := Ideal) (Host.negf (F := Ideal) d)))
        (constant (F := Ideal) S_ .f32 0x00000000#32) reducesTo_S4x64_S4_d1 h_S_)
      (broadcastInDim S4 ![] bcast_S_S4 (constant (F := Ideal) S_ .f32 0x42800000#32)))
    (constant (F := Ideal) S_ .f32 0x00000000#32) reducesTo_S4_S_d0 h_S_

/-- What the lines after the region leave in the result buffer. -/
theorem tail_eq (c : Dev nD) :
    Pipeline.afterTail₀ cfgs (dats m) 0 (V0 m) [hostOps1] c main_v9 = epilogue (bandSum (partials m c)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v0)
      = partials m c :=
    (Pipeline.withArrays_arr spec0 launch0.win.arr_inj c _ _ 2).trans (final m c)
  exact congrArg (fun d => epilogue (bandSum d)) e

/-- Every weakly fair execution of the kernel's program ends with the result at the epilogue of the band sums of the
    partial sums, and the two arguments as they were. -/
theorem run : θ_run defs (onTc (τ := τ) (main (F := Ideal))) ⟨m, fun _ => 0, ρ⟩ fun r => ∀ c : Dev nD,
      r.2.mem ((c.tc : Thread nD τ).loc main_v9) = epilogue (bandSum (partials m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 (Pipeline.mem_restRefs_of main_v9 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Val

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.RefSide.lean ====
/-
  The reference's first reduction read at an entry, on the extended reals.

  The reference subtracts the two [4,64,512,512] arguments entry by entry and sums the differences over the last two axes,
  from the initial value. The indices that reduce to (l, b) are exactly (l, b, r, s) over the 512 by 512 positions, each
  once, so the result at (l, b) is the initial value plus the double sum over r and s.
-/
import proofs.«176981_j44487271252553_2_alg».proof.Proof.Gen.ReferenceIdeal
import Idealize.ShloMosaic.PureOps.Ideal.Laws
import proofs.«176981_j44487271252553_2_alg».proof.Proof.LibFolds
import Idealize.ShloMosaic.Lib.ValueIdx

noncomputable section

open Idealize.ShloMosaic Idealize.SL.Sem

namespace Cert.ReferenceIdeal.RefVal

open Cert.ReferenceIdeal Cert.ReferenceIdeal.Gen Idealize.ShloMosaic.ValueIdx

/-- Dropping the last two coordinates of (l, b, r, s) leaves (l, b). -/
theorem drop_ix4 (l : Fin 4) (b : Fin 64) (r s : Fin 512) :
    reducesTo_S4x64x512x512_S4x64_d2_3.drop (ix4 l b r s) = ix2 l b :=
  funext fun a => Fin.ext (by match a with | ⟨0, _⟩ => rfl | ⟨1, _⟩ => rfl)

/-- The host's sum over the last two axes at (l, b): the initial value plus the sum over the 512 by 512 positions. -/
theorem reduce_maps_apply (x : FVec Ideal S4x64x512x512 .f32) (init : FVec Ideal S_ .f32) (l : Fin 4) (b : Fin 64) :
    Host.reduceAdd (F := Ideal) x init reducesTo_S4x64x512x512_S4x64_d2_3 h_S_ (ix2 l b)
      = init (Shape.Idx.first h_S_) + ∑ r : Fin 512, ∑ s : Fin 512, x (ix4 l b r s) := by
  simp only [Host.reduceAdd, Ideal.hostReduceAdd_def]
  unfold Ideal.hostReduceAdd
  refine congrArg (_ + ·) ?_
  refine (Cert.LibFolds.sum_fibre _ _ (fun p : Fin 512 × Fin 512 => ix4 l b p.1 p.2) ?_ ?_ ?_ x).trans ?_
  · intro p q h
    exact Prod.ext (congrFun h 2) (congrFun h 3)
  · intro p
    exact drop_ix4 l b p.1 p.2
  · intro i h
    obtain ⟨l', b', r, s, rfl⟩ : ∃ (l' : Fin 4) (b' : Fin 64) (r s : Fin 512), i = ix4 l' b' r s :=
      ⟨i 0, i 1, i 2, i 3, eq_ix4 i⟩
    rw [drop_ix4] at h
    obtain rfl : l' = l := congrFun h 0
    obtain rfl : b' = b := congrFun h 1
    exact ⟨(r, s), rfl⟩
  · exact Fintype.sum_prod_type _

end Cert.ReferenceIdeal.RefVal

end
-- ==== Proof.Bridge.lean ====
/-
  The two programs' first host reductions give one [4,64] array.

  The kernel's program sums the [16,4,64] array of partial sums over its first axis; at (l, b) that is the initial value
  plus the sum over the sixteen row bands of the band's partial sum, which is the sum of the difference map at (l, b) over
  all 64 tiles, that is over the whole 512 by 512 map. The reference sums the differences over the last two axes in one
  pass: the initial value plus the same double sum. The initial values are the same word. Addition of extended reals is
  commutative and associative at the infinities too, so nothing here needs the inputs finite.
-/
import proofs.«176981_j44487271252553_2_alg».proof.Proof.Final
import proofs.«176981_j44487271252553_2_alg».proof.Proof.RefSide

noncomputable section

open Idealize.ShloMosaic Idealize.ShloMosaic.TcCoe Idealize.SL.Sem
open Idealize.ShloMosaic.Pipeline (Dat)

namespace Cert.Bridge

open Idealize.ShloMosaic.ValueIdx

/-- The host's sum over the first axis of a [16,4,64] array at (l, b): the initial value plus the sum over the 16 bands. -/
theorem band_sum_apply (P : FVec Ideal Cert.KernelIdeal.S16x4x64 .f32) (init : FVec Ideal Cert.KernelIdeal.S_ .f32)
    (l : Fin 4) (b : Fin 64) :
    Host.reduceAdd (F := Ideal) P init Cert.KernelIdeal.Gen.reducesTo_S16x4x64_S4x64_d0 Cert.KernelIdeal.Gen.h_S_ (ix2 l b)
      = init (Shape.Idx.first Cert.KernelIdeal.Gen.h_S_) + ∑ p : Fin 16, P (ix3 p l b) := by
  simp only [Host.reduceAdd, Ideal.hostReduceAdd_def]
  rw [Ideal.hostReduceAdd_single Cert.KernelIdeal.Gen.reducesTo_S16x4x64_S4x64_d0 (by decide)]
  refine congrArg (_ + ·) (Finset.sum_congr rfl fun k _ => ?_)
  exact congrArg P (funext fun a => Fin.ext (by match a with | ⟨0, _⟩ => rfl | ⟨1, _⟩ => rfl | ⟨2, _⟩ => rfl))

/-- The kernel's sum of the partial sums is the reference's sum of the differences over the maps. -/
theorem diff_eq (m : (ℓ : Loc Cert.KernelIdeal.nD Cert.KernelIdeal.τ Cert.KernelIdeal.sig) → Buf (Elt Ideal) ℓ)
    (c : Dev Cert.KernelIdeal.nD) :
    Host.reduceAdd (F := Ideal) (Cert.KernelIdeal.Val.partials m c) (constant (F := Ideal) Cert.KernelIdeal.S_ .f32 0x00000000#32)
        Cert.KernelIdeal.Gen.reducesTo_S16x4x64_S4x64_d0 Cert.KernelIdeal.Gen.h_S_
      = Host.reduceAdd (F := Ideal) (subf (Cert.KernelIdeal.Val.arg0 m c) (Cert.KernelIdeal.Val.arg1 m c))
          (constant (F := Ideal) Cert.ReferenceIdeal.S_ .f32 0x00000000#32)
          Cert.ReferenceIdeal.Gen.reducesTo_S4x64x512x512_S4x64_d2_3 Cert.ReferenceIdeal.Gen.h_S_ := by
  funext i
  obtain ⟨l, b, rfl⟩ : ∃ (l : Fin 4) (b : Fin 64), i = ix2 l b := ⟨i 0, i 1, eq_ix2 i⟩
  refine (band_sum_apply _ _ l b).trans ?_
  refine Eq.trans ?_ (Cert.ReferenceIdeal.RefVal.reduce_maps_apply _ _ l b).symm
  refine congrArg₂ (· + ·) rfl ?_
  exact Cert.TileSums.sum_tiles (Cert.KernelIdeal.Val.dmap m c l b)

end Cert.Bridge

end
-- ==== Proof.lean ====
/-
  The certificate of the region-alignment loss kernel against its jnp reference: three frames, the idealization's ledger
  (empty), and equality of the two idealized programs' results over the extended reals.

  Both programs compute, from two [4,64,512,512] arrays A and B, the scalar Σ_l mean_b 10·exp(−d(l,b)) with
  d(l,b) = Σ_{r,s} (A − B)(l,b,r,s). The reference takes d in one reduction over the last two axes. The kernel walks a
  16 by 4 grid of 32 by 128 tiles of the maps; for each row band it starts a [4,64] block at zero on the first column tile,
  adds each tile's sum of differences (columns first, then rows), writes the block back after the fourth tile as one row of
  a [16,4,64] array, and the host then sums that array over its first axis. Every tile is visited once, and sums of
  extended reals may be regrouped and reordered freely (the infinities included), so the two values of d agree entry by
  entry; the lines after d are the same in both programs. The precondition is not needed for the equality.

  The frames of the two kernel programs are the generated ones; the reference's frame is its generated run with the result
  forgotten. The modules: TileSums (the regrouping of a 512 by 512 sum by tiles), Pieces and Payload (what one run of the body
  leaves, and its arithmetic at an entry), Blocks (a staged tile read at an entry), Accum (the running block by induction on
  the grid point), Final (the array the region leaves), KernelRun (the program's result), RefSide (the reference's reduction at
  an entry), Bridge (the two values of d are one array).
-/
import proofs.«176981_j44487271252553_2_alg».proof.Defs
import proofs.«176981_j44487271252553_2_alg».proof.Proof.Gen.Kernel
import proofs.«176981_j44487271252553_2_alg».proof.Proof.Gen.Kernel.Frame
import proofs.«176981_j44487271252553_2_alg».proof.Proof.Gen.KernelIdeal
import proofs.«176981_j44487271252553_2_alg».proof.Proof.Gen.KernelIdeal.Frame
import proofs.«176981_j44487271252553_2_alg».proof.Proof.Gen.ReferenceIdeal
import proofs.«176981_j44487271252553_2_alg».proof.Proof.Gen.ReferenceIdeal.Run
import proofs.«176981_j44487271252553_2_alg».proof.Proof.Gen.Pre_finite_inputs
import proofs.«176981_j44487271252553_2_alg».proof.Proof.KernelRun
import proofs.«176981_j44487271252553_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's program ends at the shared lines applied to the band sums of the partial sums, the reference at the same
    lines applied to its one-pass sum of the differences of arguments that agree: one array (`Bridge.diff_eq`). -/
theorem algebraic : Cert.algebraic_KernelIdeal_ReferenceIdeal := by
  intro m ρ m' ρ' _ hagree
  refine ⟨fun c => Cert.KernelIdeal.Val.epilogue (Cert.KernelIdeal.Val.bandSum (Cert.KernelIdeal.Val.partials m c)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (congrArg Cert.KernelIdeal.Val.epilogue (Cert.Bridge.diff_eq m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
